-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512x512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x512 .f32) (main_arg1 : FVec F S65536x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S65536x512 : Shape := ⟨2, ![65536, 512]⟩
abbrev S512x512 : Shape := ⟨2, ![512, 512]⟩
abbrev S512 : Shape := ⟨1, ![512]⟩
abbrev S1x512 : Shape := ⟨2, ![1, 512]⟩
abbrev S2x65536x512 : Shape := ⟨3, ![2, 65536, 512]⟩
abbrev S2048x512 : Shape := ⟨2, ![2048, 512]⟩
abbrev S2x2048x512 : Shape := ⟨3, ![2, 2048, 512]⟩
abbrev S1x2048x512 : Shape := ⟨3, ![1, 2048, 512]⟩

abbrev nBuf : Space → Nat
  | .hbm => 23
  | .vmem => 14
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512x512, .bf16⟩
  | .hbm, ⟨12, _⟩ => ⟨S512x512, .f32⟩
  | .hbm, ⟨13, _⟩ => ⟨S512x512, .bf16⟩
  | .hbm, ⟨14, _⟩ => ⟨S512x512, .f32⟩
  | .hbm, ⟨15, _⟩ => ⟨S512x512, .bf16⟩
  | .hbm, ⟨16, _⟩ => ⟨S512x512, .f32⟩
  | .hbm, ⟨17, _⟩ => ⟨S512x512, .bf16⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S2x65536x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S2x2048x512, .f32⟩
  | .local _ .vmem, ⟨13, _⟩ => ⟨S2x2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x2048x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2x2048x512_S1x2048x512_0_0_0 : ∀ a, (![0, 0, 0] : Fin 3 → Nat) a + S1x2048x512.size a ≤ S2x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  inb_S2x2048x512_S1x2048x512_1_0_0 : ∀ a, (![1, 0, 0] : Fin 3 → Nat) a + S1x2048x512.size a ≤ S2x2048x512.size a
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2x2048x512.size a ≤ S2x65536x512.size a
  hwx0_10 : ∀ i : grid0.Coords, EltTy.bits .f32 = 32 ∨ (Rect.block (s := S2x65536x512) S2x2048x512.size (cc0_transform_10 i) (hinb0_10 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S2x2048x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512 : Shape := ⟨1, ![512]⟩
abbrev S1x512 : Shape := ⟨2, ![1, 512]⟩
abbrev S_ : Shape := ⟨0, ![]⟩
abbrev S1x65536x512 : Shape := ⟨3, ![1, 65536, 512]⟩
abbrev S2x65536x512 : Shape := ⟨3, ![2, 65536, 512]⟩

abbrev nBuf : Space → Nat
  | .hbm => 63
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S65536x512, .f32⟩
  | .hbm, ⟨11, _⟩ => ⟨S512x512, .f32⟩
  | .hbm, ⟨12, _⟩ => ⟨S65536x512, .f32⟩
  | .hbm, ⟨13, _⟩ => ⟨S1x512, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S_, .f32⟩
  | .hbm, ⟨19, _⟩ => ⟨S65536x512, .f32⟩
  | .hbm, ⟨20, _⟩ => ⟨S65536x512, .f32⟩
  | .hbm, ⟨21, _⟩ => ⟨S_, .f32⟩
  | .hbm, ⟨22, _⟩ => ⟨S65536x512, .f32⟩
  | .hbm, ⟨23, _⟩ => ⟨S65536x512, .f32⟩
  | .hbm, ⟨24, _⟩ => ⟨S512x512, .f32⟩
  | .hbm, ⟨25, _⟩ => ⟨S65536x512, .f32⟩
  | .hbm, ⟨26, _⟩ => ⟨S1x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S_, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536x512, .f32⟩
  | .hbm, ⟨36, _⟩ => ⟨S65536x512, .f32⟩
  | .hbm, ⟨37, _⟩ => ⟨S512x512, .f32⟩
  | .hbm, ⟨38, _⟩ => ⟨S65536x512, .f32⟩
  | .hbm, ⟨39, _⟩ => ⟨S1x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S512x512, .f32⟩
  | .hbm, ⟨47, _⟩ => ⟨S65536x512, .f32⟩
  | .hbm, ⟨48, _⟩ => ⟨S1x512, .f32⟩
  | .hbm, ⟨49, _⟩ => ⟨S65536x512, .f32⟩
  | .hbm, ⟨50, _⟩ => ⟨S65536x512, .f32⟩
  | .hbm, ⟨51, _⟩ => ⟨S65536x512, .f32⟩
  | .hbm, ⟨52, _⟩ => ⟨S65536x512, .f32⟩
  | .hbm, ⟨53, _⟩ => ⟨S_, .f32⟩
  | .hbm, ⟨54, _⟩ => ⟨S65536x512, .f32⟩
  | .hbm, ⟨55, _⟩ => ⟨S65536x512, .f32⟩
  | .hbm, ⟨56, _⟩ => ⟨S_, .f32⟩
  | .hbm, ⟨57, _⟩ => ⟨S65536x512, .f32⟩
  | .hbm, ⟨58, _⟩ => ⟨S65536x512, .f32⟩
  | .hbm, ⟨59, _⟩ => ⟨S65536x512, .f32⟩
  | .hbm, ⟨60, _⟩ => ⟨S1x65536x512, .f32⟩
  | .hbm, ⟨61, _⟩ => ⟨S1x65536x512, .f32⟩
  | .hbm, ⟨62, _⟩ => ⟨S2x65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S65536x512_S1x65536x512_1_2 : S65536x512.BroadcastsInDim S1x65536x512 (![1, 2] : Fin 2 → Fin S1x65536x512.rank)
  concatenates_S1x65536x512_S1x65536x512_S2x65536x512_d0 : Shape.Concatenates [S1x65536x512, S1x65536x512] S2x65536x512 0
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.Spec.lean ====
/-
  The long short-term memory cell, entry by entry on the extended reals.

  A row `z` of the summed inputs is contracted against one row of a weight matrix and the bias entry of that column is
  added: a pre-activation. With the four pre-activations f, i, g, o of a position, the new cell entry is
  `σ(f) + σ(i) · tanh(g)` and the new hidden entry `tanh(cell) · σ(o)`, `σ` the logistic function. The result array
  stacks the cell entries (plane 0) over the hidden entries (plane 1). Nothing here depends on a program.
-/
import Idealize.ShloMosaic.PureOps.Ideal
import Idealize.ShloMosaic.Lib.ValueIdx

noncomputable section

namespace Cert.Gates

open Idealize.ShloMosaic Idealize.ShloMosaic.ValueIdx

/-- A matrix and a vector of extended reals over literal extents. -/
abbrev Mat (a b : Nat) : Type := (⟨2, ![a, b]⟩ : Shape).Idx → EReal
abbrev Vc (a : Nat) : Type := (⟨1, ![a]⟩ : Shape).Idx → EReal

/-- A pre-activation: an input row contracted with a weight row, plus the bias entry. -/
def pre (z w : Fin 512 → EReal) (β : EReal) : EReal := (∑ k : Fin 512, z k * w k) + β

/-- The new cell entry from the input row, the weight rows of the three branches it reads and their bias entries:
    `σ(f) + σ(i) · tanh(g)`. -/
def cellOf (z wf wi wg : Fin 512 → EReal) (βf βi βg : EReal) : EReal :=
  Ideal.logistic (pre z wf βf) + Ideal.logistic (pre z wi βi) * Ideal.tanh (pre z wg βg)

/-- The new hidden entry: `tanh(cell) · σ(o)`. -/
def hidOf (z wf wi wg wo : Fin 512 → EReal) (βf βi βg βo : EReal) : EReal :=
  Ideal.tanh (cellOf z wf wi wg βf βi βg) * Ideal.logistic (pre z wo βo)

/-- Row `r` of the sum of two matrices with 512 columns. -/
def zrow {R : Nat} (x s : Mat R 512) (r : Fin R) : Fin 512 → EReal := fun k => x (ix2 r k) + s (ix2 r k)

/-- Row `c` of a 512 × 512 matrix, and column `c` of one. -/
def wrow (W : Mat 512 512) (c : Fin 512) : Fin 512 → EReal := fun k => W (ix2 c k)
def wcol (W : Mat 512 512) (c : Fin 512) : Fin 512 → EReal := fun k => W (ix2 k c)

/-- The result array of the cell over 65536 rows: plane 0 the new cell state, plane 1 the new hidden state; the entry at
    row `r` and column `c` reads row `r` of `x + s`, row `c` of each weight matrix and entry `c` of each bias. -/
def G (x s : Mat 65536 512) (Wf : Mat 512 512) (bf : Vc 512) (Wi : Mat 512 512) (bi : Vc 512) (Wg : Mat 512 512) (bg : Vc 512)
    (Wo : Mat 512 512) (bo : Vc 512) : (⟨3, ![2, 65536, 512]⟩ : Shape).Idx → EReal := fun j =>
  if (j 0).val = 0 then
    cellOf (zrow x s (j 1)) (wrow Wf (j 2)) (wrow Wi (j 2)) (wrow Wg (j 2)) (bf (ix1 (j 2))) (bi (ix1 (j 2))) (bg (ix1 (j 2)))
  else
    hidOf (zrow x s (j 1)) (wrow Wf (j 2)) (wrow Wi (j 2)) (wrow Wg (j 2)) (wrow Wo (j 2))
      (bf (ix1 (j 2))) (bi (ix1 (j 2))) (bg (ix1 (j 2))) (bo (ix1 (j 2)))

/-- The same two planes over one block of 2048 rows, from the block's rows of the two inputs, the weight matrices laid
    out with the contracted coordinate first (so a branch reads a column) and the biases as one-row matrices. -/
def Gblock (x s : Mat 2048 512) (Wf : Mat 512 512) (bf : Mat 1 512) (Wi : Mat 512 512) (bi : Mat 1 512) (Wg : Mat 512 512)
    (bg : Mat 1 512) (Wo : Mat 512 512) (bo : Mat 1 512) : (⟨3, ![2, 2048, 512]⟩ : Shape).Idx → EReal := fun y =>
  if (y 0).val = 0 then
    cellOf (zrow x s (y 1)) (wcol Wf (y 2)) (wcol Wi (y 2)) (wcol Wg (y 2))
      (bf (ix2 (0 : Fin 1) (y 2))) (bi (ix2 (0 : Fin 1) (y 2))) (bg (ix2 (0 : Fin 1) (y 2)))
  else
    hidOf (zrow x s (y 1)) (wcol Wf (y 2)) (wcol Wi (y 2)) (wcol Wg (y 2)) (wcol Wo (y 2))
      (bf (ix2 (0 : Fin 1) (y 2))) (bi (ix2 (0 : Fin 1) (y 2))) (bg (ix2 (0 : Fin 1) (y 2))) (bo (ix2 (0 : Fin 1) (y 2)))

/-- An entry of the block function is the entry of the array function at an array index `E` on the same plane, when the
    block's input row is the array's row at `E`, each weight block's column is the weight matrix's row at `E`'s column
    (the blocks hold the transposed matrices), and each bias block's entry is the bias at `E`'s column. -/
theorem block_is_G (x s : Mat 2048 512) (wf : Mat 512 512) (bf : Mat 1 512) (wi : Mat 512 512) (bi : Mat 1 512)
    (wg : Mat 512 512) (bg : Mat 1 512) (wo : Mat 512 512) (bo : Mat 1 512)
    (X S : Mat 65536 512) (Wf : Mat 512 512) (Bf : Vc 512) (Wi : Mat 512 512) (Bi : Vc 512) (Wg : Mat 512 512) (Bg : Vc 512)
    (Wo : Mat 512 512) (Bo : Vc 512) (E : (⟨3, ![2, 65536, 512]⟩ : Shape).Idx) (u : Fin 2) (p : Fin 2048) (q : Fin 512)
    (h0 : (E 0).val = u.val) (hz : zrow x s p = zrow X S (E 1))
    (hf : wcol wf q = wrow Wf (E 2)) (hi : wcol wi q = wrow Wi (E 2)) (hg : wcol wg q = wrow Wg (E 2)) (ho : wcol wo q = wrow Wo (E 2))
    (hbf : bf (ix2 (0 : Fin 1) q) = Bf (ix1 (E 2))) (hbi : bi (ix2 (0 : Fin 1) q) = Bi (ix1 (E 2)))
    (hbg : bg (ix2 (0 : Fin 1) q) = Bg (ix1 (E 2))) (hbo : bo (ix2 (0 : Fin 1) q) = Bo (ix1 (E 2))) :
    Gblock x s wf bf wi bi wg bg wo bo (ix3 u p q) = G X S Wf Bf Wi Bi Wg Bg Wo Bo E := by
  unfold Gblock G
  by_cases hu : u.val = 0
  · rw [if_pos (show ((ix3 u p q : (⟨3, ![2, 2048, 512]⟩ : Shape).Idx) 0).val = 0 from hu), if_pos (h0.trans hu)]
    show cellOf (zrow x s p) (wcol wf q) (wcol wi q) (wcol wg q) (bf (ix2 (0 : Fin 1) q)) (bi (ix2 (0 : Fin 1) q)) (bg (ix2 (0 : Fin 1) q)) = _
    rw [hz, hf, hi, hg, hbf, hbi, hbg]
  · rw [if_neg (show ¬ ((ix3 u p q : (⟨3, ![2, 2048, 512]⟩ : Shape).Idx) 0).val = 0 from hu), if_neg (fun h => hu (h0.symm.trans h))]
    show hidOf (zrow x s p) (wcol wf q) (wcol wi q) (wcol wg q) (wcol wo q) (bf (ix2 (0 : Fin 1) q)) (bi (ix2 (0 : Fin 1) q))
      (bg (ix2 (0 : Fin 1) q)) (bo (ix2 (0 : Fin 1) q)) = _
    rw [hz, hf, hi, hg, ho, hbf, hbi, hbg, hbo]

end Cert.Gates

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.Block.lean ====
/-
  What one grid point leaves in the output block, entry by entry. The body adds the two input blocks, contracts each row
  of the sum with a column of each of the four weight blocks, adds the bias rows, and stores the new cell entries in
  plane 0 and the new hidden entries in plane 1 of a [2, 2048, 512] block. Read at an index, the two stores together are
  the block function `Gblock` of the ten input blocks.
-/
import proofs.«149987_j21002390078075_2_alg».proof.Proof.Gen.KernelIdeal.Frame
import proofs.«149987_j21002390078075_2_alg».proof.Proof.Spec
import proofs.«149987_j21002390078075_2_alg».proof.Proof.LibMatmulAt
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx Cert.Gates

/-- The logistic function and the hyperbolic tangent of an array, read at an index. -/
theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-- One linear branch of the body at row `p`, column `q`: the product of the summed inputs with a weight block, into the zero
    accumulator, plus the bias row spread over the rows, is the pre-activation of row `p` of the sum against column `q`
    of the weight block. -/
theorem gate_at (z : FVec Ideal S2048x512 .bf16) (w : FVec Ideal S512x512 .bf16) (b : FVec Ideal S1x512 .f32)
    (p : Fin 2048) (q : Fin 512) :
    addf (matmul dot_S2048x512_S512x512_S2048x512_1_0_0_1_n_n none z (shapeCast S512x512 w shapeCasts_S512x512_S512x512)
        (constant S2048x512 .f32 0x00000000#32))
      (broadcastTo S2048x512 (shapeCast S1x512 b shapeCasts_S1x512_S1x512) broadcasts_S1x512_S2048x512) (ix2 p q)
    = pre (fun k => z (ix2 p k)) (wcol w q) (b (ix2 (0 : Fin 1) q)) := by
  rw [addf_apply, shapeCast_self, shapeCast_self,
    Cert.KernelIdeal.Hand.matmul_zero_plain_apply dot_S2048x512_S512x512_S2048x512_1_0_0_1_n_n rfl none z w (ix2 p q),
    broadcastTo_1b_ab_apply]
  rfl

/-- The product alone, for the branch whose bias the body adds later. -/
theorem prod_at (z : FVec Ideal S2048x512 .bf16) (w : FVec Ideal S512x512 .bf16) (p : Fin 2048) (q : Fin 512) :
    matmul dot_S2048x512_S512x512_S2048x512_1_0_0_1_n_n none z (shapeCast S512x512 w shapeCasts_S512x512_S512x512)
        (constant S2048x512 .f32 0x00000000#32) (ix2 p q)
    = ∑ k : Fin 512, z (ix2 p k) * wcol w q k := by
  rw [shapeCast_self,
    Cert.KernelIdeal.Hand.matmul_zero_plain_apply dot_S2048x512_S512x512_S2048x512_1_0_0_1_n_n rfl none z w (ix2 p q)]
  rfl

/-- The new cell entries the body computes, at row `p` and column `q`. -/
theorem cell_at (v0 v1 : Vec Ideal S2048x512 .f32) (v4 : Vec Ideal S512x512 .bf16) (v7 : Vec Ideal S1x512 .f32)
    (v12 : Vec Ideal S512x512 .bf16) (v15 : Vec Ideal S1x512 .f32) (v19 : Vec Ideal S512x512 .bf16) (v22 : Vec Ideal S1x512 .f32)
    (p : Fin 2048) (q : Fin 512) :
    k0_pay4 v0 v1 v4 v7 v12 v15 v19 v22 (ix2 p q)
    = cellOf (zrow v0 v1 p) (wcol v4 q) (wcol v12 q) (wcol v19 q) (v7 (ix2 (0 : Fin 1) q)) (v15 (ix2 (0 : Fin 1) q)) (v22 (ix2 (0 : Fin 1) q)) := by
  unfold k0_pay4
  rw [addf_apply, mulf_apply, logistic_at, logistic_at, tanh_at, gate_at, gate_at, gate_at]
  rfl

/-- The product of the fourth branch at row `p` and column `q`. -/
theorem out_prod_at (v0 v1 : Vec Ideal S2048x512 .f32) (v30 : Vec Ideal S512x512 .bf16) (p : Fin 2048) (q : Fin 512) :
    k0_pay5 v0 v1 v30 (ix2 p q) = ∑ k : Fin 512, zrow v0 v1 p k * wcol v30 q k := by
  unfold k0_pay5
  rw [prod_at]
  rfl

/-- The bias row of the fourth branch is passed on as loaded. -/
theorem out_bias (v33 : Vec Ideal S1x512 .f32) : k0_pay6 v33 = v33 := by
  unfold k0_pay6
  exact shapeCast_self _ _

/-- The first store's payload is the cell entries with a unit plane axis put in front. -/
theorem plane0_at (v29 : FVec Ideal S2048x512 .f32) (u : Fin 1) (p : Fin 2048) (q : Fin 512) :
    k0_pay1 v29 (ix3 u p q) = v29 (ix2 p q) := by
  unfold k0_pay1
  exact shapeCast_ab_1ab_apply v29 _ u p q

/-- The second store's payload: `tanh` of the cell entry times the logistic function of the fourth pre-activation. -/
theorem plane1_at (v29 v32 : FVec Ideal S2048x512 .f32) (v34 : FVec Ideal S1x512 .f32) (u : Fin 1) (p : Fin 2048) (q : Fin 512) :
    k0_pay2 v29 v32 v34 (ix3 u p q)
    = Ideal.tanh (v29 (ix2 p q)) * Ideal.logistic (v32 (ix2 p q) + v34 (ix2 (0 : Fin 1) q)) := by
  unfold k0_pay2
  rw [shapeCast_ab_1ab_apply, mulf_apply, tanh_at, logistic_at, addf_apply, broadcastTo_1b_ab_apply]

theorem hz2 : (![0, 0] : Fin 2 → Nat) = fun _ => 0 := funext fun a => by fin_cases a <;> rfl

/-- The block after the body's two stores is `Gblock` of the ten input blocks: the store at plane 0 holds the cell
    entries, the store at plane 1 the hidden entries, and the two planes tile the block. -/
theorem out_block (x0 x1 : Vec Ideal S2048x512 .f32) (x2 : Vec Ideal S512x512 .bf16) (x3 : Vec Ideal S1x512 .f32)
    (x4 : Vec Ideal S512x512 .bf16) (x5 : Vec Ideal S1x512 .f32) (x6 : Vec Ideal S512x512 .bf16) (x7 : Vec Ideal S1x512 .f32)
    (x8 : Vec Ideal S512x512 .bf16) (x9 : Vec Ideal S1x512 .f32) :
    out0_10 x0 x1 x2 x3 x4 x5 x6 x7 x8 x9 = Gblock x0 x1 x2 x3 x4 x5 x6 x7 x8 x9 := by
  funext y
  unfold out0_10
  simp only [View.ld_unit_zero (S := S2048x512) hz2, View.ld_unit_zero (S := S512x512) hz2, View.ld_unit_zero (S := S1x512) hz2]
  refine View.canon_apply_of_pieces (Val := Elt Ideal) (S := S2x2048x512) (e := .f32) (Gblock x0 x1 x2 x3 x4 x5 x6 x7 x8 x9) _ ?_ y (cover0_10 _ _ y)
  intro pc hpc
  rcases List.mem_cons.mp hpc with rfl | hpc
  · -- the later store: plane 1, the hidden entries
    intro x
    obtain ⟨u, p, q, rfl⟩ : ∃ (u : Fin 1) (p : Fin 2048) (q : Fin 512), x = ix3 u p q := ⟨x 0, x 1, x 2, eq_ix3 x⟩
    have hu : u.val = 0 := by have := u.isLt; omega
    have he : r0_4.emb (ix3 u p q) = ix3 (1 : Fin 2) p q := by
      funext a; apply Fin.ext
      match a with
      | ⟨0, _⟩ => show 1 + 1 * u.val = 1; omega
      | ⟨1, _⟩ => show 0 + 1 * p.val = p.val; omega
      | ⟨2, _⟩ => show 0 + 1 * q.val = q.val; omega
    show k0_pay2 (k0_pay4 x0 x1 x2 x3 x4 x5 x6 x7) (k0_pay5 x0 x1 x8) (k0_pay6 x9) (ix3 u p q)
      = Gblock x0 x1 x2 x3 x4 x5 x6 x7 x8 x9 (r0_4.emb (ix3 u p q))
    rw [he, plane1_at, cell_at, out_prod_at, out_bias]
    unfold Gblock
    rw [if_neg (show ¬ ((ix3 (1 : Fin 2) p q : S2x2048x512.Idx) 0).val = 0 from Nat.one_ne_zero)]
    rfl
  · -- the earlier store: plane 0, the cell entries
    rcases List.mem_singleton.mp hpc with rfl
    intro x
    obtain ⟨u, p, q, rfl⟩ : ∃ (u : Fin 1) (p : Fin 2048) (q : Fin 512), x = ix3 u p q := ⟨x 0, x 1, x 2, eq_ix3 x⟩
    have hu : u.val = 0 := by have := u.isLt; omega
    have he : r0_3.emb (ix3 u p q) = ix3 (0 : Fin 2) p q := by
      funext a; apply Fin.ext
      match a with
      | ⟨0, _⟩ => show 0 + 1 * u.val = 0; omega
      | ⟨1, _⟩ => show 0 + 1 * p.val = p.val; omega
      | ⟨2, _⟩ => show 0 + 1 * q.val = q.val; omega
    show k0_pay1 (k0_pay4 x0 x1 x2 x3 x4 x5 x6 x7) (ix3 u p q)
      = Gblock x0 x1 x2 x3 x4 x5 x6 x7 x8 x9 (r0_3.emb (ix3 u p q))
    rw [he, plane0_at, cell_at]
    unfold Gblock
    rw [if_pos (show ((ix3 (0 : Fin 2) p q : S2x2048x512.Idx) 0).val = 0 from rfl)]

end Cert.KernelIdeal.Block

end
-- ==== Proof.KernelArray.lean ====
/-
  The array the kernel leaves. The grid has 32 points; point `t` reads rows `t · 2048 … t · 2048 + 2047` of the two
  inputs, the four transposed weight matrices and the four bias rows whole, and writes rows `t · 2048 …` of both planes
  of the result. Each written block is the matching block of the array function `G` of the ten arguments, and the 32
  blocks tile the result, so the result array is `G`.
-/
import proofs.«149987_j21002390078075_2_alg».proof.Proof.Gen.KernelIdeal.Value
import proofs.«149987_j21002390078075_2_alg».proof.Proof.Block
import proofs.«149987_j21002390078075_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.Gates
open Idealize.ShloMosaic.Pipeline (Dat)

variable (m : (ℓ : Loc nD τ sig) → Buf (Elt Ideal) ℓ) (ρ : Dev nD → PrngReg)

/-! ## The arrays the region finds: the host operations before it -/

/-- Window 2's array as the region finds it is `main_arg2` transposed (the change of float format is the identity), so
    its entry at `(k, q)` is the argument's at `(q, k)`. -/
theorem host_wf (c : Dev nD) : @Eq (S512x512.Idx → EReal) (V m c main_v1)
    (truncf (F := Ideal) .bf16 (transpose S512x512 [1, 0] (m ((c : Thread nD τ).loc main_arg2)) transposes_S512x512_S512x512_1_0) bitsLt_bf16_f32) := by
  dsimp only [Gen.V, Gen.hostOps0]; after_results <;> rfl

theorem host_wf_at (c : Dev nD) (k q : Fin 512) : @Eq EReal (V m c main_v1 (ix2 k q)) (m ((c : Thread nD τ).loc main_arg2) (ix2 q k)) := by
  refine (congrFun (host_wf m c) (ix2 k q)).trans ?_
  exact transpose_apply [1, 0] _ transposes_S512x512_S512x512_1_0 (ix2 k q) (ix2 q k) (fun b => match b with
    | ⟨0, _⟩ => rfl
    | ⟨1, _⟩ => rfl)

/-- Window 4's array as the region finds it is `main_arg4` transposed (the change of float format is the identity), so
    its entry at `(k, q)` is the argument's at `(q, k)`. -/
theorem host_wi (c : Dev nD) : @Eq (S512x512.Idx → EReal) (V m c main_v3)
    (truncf (F := Ideal) .bf16 (transpose S512x512 [1, 0] (m ((c : Thread nD τ).loc main_arg4)) transposes_S512x512_S512x512_1_0) bitsLt_bf16_f32) := by
  dsimp only [Gen.V, Gen.hostOps0]; after_results <;> rfl

theorem host_wi_at (c : Dev nD) (k q : Fin 512) : @Eq EReal (V m c main_v3 (ix2 k q)) (m ((c : Thread nD τ).loc main_arg4) (ix2 q k)) := by
  refine (congrFun (host_wi m c) (ix2 k q)).trans ?_
  exact transpose_apply [1, 0] _ transposes_S512x512_S512x512_1_0 (ix2 k q) (ix2 q k) (fun b => match b with
    | ⟨0, _⟩ => rfl
    | ⟨1, _⟩ => rfl)

/-- Window 6's array as the region finds it is `main_arg6` transposed (the change of float format is the identity), so
    its entry at `(k, q)` is the argument's at `(q, k)`. -/
theorem host_wg (c : Dev nD) : @Eq (S512x512.Idx → EReal) (V m c main_v5)
    (truncf (F := Ideal) .bf16 (transpose S512x512 [1, 0] (m ((c : Thread nD τ).loc main_arg6)) transposes_S512x512_S512x512_1_0) bitsLt_bf16_f32) := by
  dsimp only [Gen.V, Gen.hostOps0]; after_results <;> rfl

theorem host_wg_at (c : Dev nD) (k q : Fin 512) : @Eq EReal (V m c main_v5 (ix2 k q)) (m ((c : Thread nD τ).loc main_arg6) (ix2 q k)) := by
  refine (congrFun (host_wg m c) (ix2 k q)).trans ?_
  exact transpose_apply [1, 0] _ transposes_S512x512_S512x512_1_0 (ix2 k q) (ix2 q k) (fun b => match b with
    | ⟨0, _⟩ => rfl
    | ⟨1, _⟩ => rfl)

/-- Window 8's array as the region finds it is `main_arg8` transposed (the change of float format is the identity), so
    its entry at `(k, q)` is the argument's at `(q, k)`. -/
theorem host_wo (c : Dev nD) : @Eq (S512x512.Idx → EReal) (V m c main_v7)
    (truncf (F := Ideal) .bf16 (transpose S512x512 [1, 0] (m ((c : Thread nD τ).loc main_arg8)) transposes_S512x512_S512x512_1_0) bitsLt_bf16_f32) := by
  dsimp only [Gen.V, Gen.hostOps0]; after_results <;> rfl

theorem host_wo_at (c : Dev nD) (k q : Fin 512) : @Eq EReal (V m c main_v7 (ix2 k q)) (m ((c : Thread nD τ).loc main_arg8) (ix2 q k)) := by
  refine (congrFun (host_wo m c) (ix2 k q)).trans ?_
  exact transpose_apply [1, 0] _ transposes_S512x512_S512x512_1_0 (ix2 k q) (ix2 q k) (fun b => match b with
    | ⟨0, _⟩ => rfl
    | ⟨1, _⟩ => rfl)

/-- Window 3's array as the region finds it is `main_arg3` recast to one row. -/
theorem host_bf (c : Dev nD) : @Eq (S1x512.Idx → EReal) (V m c main_v8)
    (shapeCast S1x512 (m ((c : Thread nD τ).loc main_arg3)) shapeCasts_S512_S1x512) := by
  dsimp only [Gen.V, Gen.hostOps0]; after_results <;> rfl

theorem host_bf_at (c : Dev nD) (u : Fin 1) (q : Fin 512) : @Eq EReal (V m c main_v8 (ix2 u q)) (m ((c : Thread nD τ).loc main_arg3) (ix1 q)) := by
  refine (congrFun (host_bf m c) (ix2 u q)).trans ?_
  exact shapeCast_a_1a_apply _ _ u q

/-- Window 5's array as the region finds it is `main_arg5` recast to one row. -/
theorem host_bi (c : Dev nD) : @Eq (S1x512.Idx → EReal) (V m c main_v9)
    (shapeCast S1x512 (m ((c : Thread nD τ).loc main_arg5)) shapeCasts_S512_S1x512) := by
  dsimp only [Gen.V, Gen.hostOps0]; after_results <;> rfl

theorem host_bi_at (c : Dev nD) (u : Fin 1) (q : Fin 512) : @Eq EReal (V m c main_v9 (ix2 u q)) (m ((c : Thread nD τ).loc main_arg5) (ix1 q)) := by
  refine (congrFun (host_bi m c) (ix2 u q)).trans ?_
  exact shapeCast_a_1a_apply _ _ u q

/-- Window 7's array as the region finds it is `main_arg7` recast to one row. -/
theorem host_bg (c : Dev nD) : @Eq (S1x512.Idx → EReal) (V m c main_v10)
    (shapeCast S1x512 (m ((c : Thread nD τ).loc main_arg7)) shapeCasts_S512_S1x512) := by
  dsimp only [Gen.V, Gen.hostOps0]; after_results <;> rfl

theorem host_bg_at (c : Dev nD) (u : Fin 1) (q : Fin 512) : @Eq EReal (V m c main_v10 (ix2 u q)) (m ((c : Thread nD τ).loc main_arg7) (ix1 q)) := by
  refine (congrFun (host_bg m c) (ix2 u q)).trans ?_
  exact shapeCast_a_1a_apply _ _ u q

/-- Window 9's array as the region finds it is `main_arg9` recast to one row. -/
theorem host_bo (c : Dev nD) : @Eq (S1x512.Idx → EReal) (V m c main_v11)
    (shapeCast S1x512 (m ((c : Thread nD τ).loc main_arg9)) shapeCasts_S512_S1x512) := by
  dsimp only [Gen.V, Gen.hostOps0]; after_results <;> rfl

theorem host_bo_at (c : Dev nD) (u : Fin 1) (q : Fin 512) : @Eq EReal (V m c main_v11 (ix2 u q)) (m ((c : Thread nD τ).loc main_arg9) (ix1 q)) := by
  refine (congrFun (host_bo m c) (ix2 u q)).trans ?_
  exact shapeCast_a_1a_apply _ _ u q

/-! ## The index maps, decided over the 32 points -/

/-- The output's block index is `(0, t, 0)`, the two inputs' `(t, 0)`, every weight's and bias's `(0, 0)`. -/
theorem idx_facts : ∀ t : Fin cfg0.N,
    win0_10.index t (0 : Fin 3) = 0
    ∧ win0_10.index t (1 : Fin 3) = t.val
    ∧ win0_10.index t (2 : Fin 3) = 0
    ∧ win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-! ## The input blocks read where the output's block says -/

/-- Input window 0's block at point `t`, at row `p`, is the argument's row `t · 2048 + p`. -/
theorem read_in0 (c : Dev nD) (t : Fin cfg0.N) (p : Fin 2048) (k : Fin 512) (r : Fin 65536) (hr : r.val = t.val * 2048 + p.val) :
    @Eq EReal (iblk m c 0 t (ix2 p k)) (m ((c : Thread nD τ).loc main_arg0) (ix2 r k)) := by
  show V m c main_arg0 (((cfg0.win 0).blk t).view.emb (ix2 p k)) = _
  rw [V_main_arg0]
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  refine congrArg (m ((c : Thread nD τ).loc main_arg0)) (funext fun a => Fin.ext ?_)
  match a with
  | ⟨0, _⟩ => show win0_0.index t (0 : Fin 2) * 2048 + 1 * p.val = r.val; omega
  | ⟨1, _⟩ => show win0_0.index t (1 : Fin 2) * 512 + 1 * k.val = k.val; omega

/-- Input window 1's block at point `t`, at row `p`, is the argument's row `t · 2048 + p`. -/
theorem read_in1 (c : Dev nD) (t : Fin cfg0.N) (p : Fin 2048) (k : Fin 512) (r : Fin 65536) (hr : r.val = t.val * 2048 + p.val) :
    @Eq EReal (iblk m c 1 t (ix2 p k)) (m ((c : Thread nD τ).loc main_arg1) (ix2 r k)) := by
  show V m c main_arg1 (((cfg0.win 1).blk t).view.emb (ix2 p k)) = _
  rw [V_main_arg1]
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  refine congrArg (m ((c : Thread nD τ).loc main_arg1)) (funext fun a => Fin.ext ?_)
  match a with
  | ⟨0, _⟩ => show win0_1.index t (0 : Fin 2) * 2048 + 1 * p.val = r.val; omega
  | ⟨1, _⟩ => show win0_1.index t (1 : Fin 2) * 512 + 1 * k.val = k.val; omega

/-- Weight window 2 holds the whole transposed matrix at every point: its entry at `(k, q)` is `main_arg2` at `(q, k)`. -/
theorem read_wf (c : Dev nD) (t : Fin cfg0.N) (k q q' : Fin 512) (hq : q'.val = q.val) :
    @Eq EReal (iblk m c 2 t (ix2 k q)) (m ((c : Thread nD τ).loc main_arg2) (ix2 q' k)) := by
  show V m c main_v1 (((cfg0.win 2).blk t).view.emb (ix2 k q)) = _
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  have he : ((cfg0.win 2).blk t).view.emb (ix2 k q) = ix2 k q' := funext fun a => Fin.ext (by
    match a with
    | ⟨0, _⟩ => show win0_2.index t (0 : Fin 2) * 512 + 1 * k.val = k.val; omega
    | ⟨1, _⟩ => show win0_2.index t (1 : Fin 2) * 512 + 1 * q.val = q'.val; omega)
  rw [he]
  exact host_wf_at m c k q'

/-- Weight window 4 holds the whole transposed matrix at every point: its entry at `(k, q)` is `main_arg4` at `(q, k)`. -/
theorem read_wi (c : Dev nD) (t : Fin cfg0.N) (k q q' : Fin 512) (hq : q'.val = q.val) :
    @Eq EReal (iblk m c 4 t (ix2 k q)) (m ((c : Thread nD τ).loc main_arg4) (ix2 q' k)) := by
  show V m c main_v3 (((cfg0.win 4).blk t).view.emb (ix2 k q)) = _
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  have he : ((cfg0.win 4).blk t).view.emb (ix2 k q) = ix2 k q' := funext fun a => Fin.ext (by
    match a with
    | ⟨0, _⟩ => show win0_4.index t (0 : Fin 2) * 512 + 1 * k.val = k.val; omega
    | ⟨1, _⟩ => show win0_4.index t (1 : Fin 2) * 512 + 1 * q.val = q'.val; omega)
  rw [he]
  exact host_wi_at m c k q'

/-- Weight window 6 holds the whole transposed matrix at every point: its entry at `(k, q)` is `main_arg6` at `(q, k)`. -/
theorem read_wg (c : Dev nD) (t : Fin cfg0.N) (k q q' : Fin 512) (hq : q'.val = q.val) :
    @Eq EReal (iblk m c 6 t (ix2 k q)) (m ((c : Thread nD τ).loc main_arg6) (ix2 q' k)) := by
  show V m c main_v5 (((cfg0.win 6).blk t).view.emb (ix2 k q)) = _
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  have he : ((cfg0.win 6).blk t).view.emb (ix2 k q) = ix2 k q' := funext fun a => Fin.ext (by
    match a with
    | ⟨0, _⟩ => show win0_6.index t (0 : Fin 2) * 512 + 1 * k.val = k.val; omega
    | ⟨1, _⟩ => show win0_6.index t (1 : Fin 2) * 512 + 1 * q.val = q'.val; omega)
  rw [he]
  exact host_wg_at m c k q'

/-- Weight window 8 holds the whole transposed matrix at every point: its entry at `(k, q)` is `main_arg8` at `(q, k)`. -/
theorem read_wo (c : Dev nD) (t : Fin cfg0.N) (k q q' : Fin 512) (hq : q'.val = q.val) :
    @Eq EReal (iblk m c 8 t (ix2 k q)) (m ((c : Thread nD τ).loc main_arg8) (ix2 q' k)) := by
  show V m c main_v7 (((cfg0.win 8).blk t).view.emb (ix2 k q)) = _
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  have he : ((cfg0.win 8).blk t).view.emb (ix2 k q) = ix2 k q' := funext fun a => Fin.ext (by
    match a with
    | ⟨0, _⟩ => show win0_8.index t (0 : Fin 2) * 512 + 1 * k.val = k.val; omega
    | ⟨1, _⟩ => show win0_8.index t (1 : Fin 2) * 512 + 1 * q.val = q'.val; omega)
  rw [he]
  exact host_wo_at m c k q'

/-- Bias window 3 holds the whole bias row at every point: its entry at column `q` is `main_arg3` at `q`. -/
theorem read_bf (c : Dev nD) (t : Fin cfg0.N) (q q' : Fin 512) (hq : q'.val = q.val) :
    @Eq EReal (iblk m c 3 t (ix2 (0 : Fin 1) q)) (m ((c : Thread nD τ).loc main_arg3) (ix1 q')) := by
  show V m c main_v8 (((cfg0.win 3).blk t).view.emb (ix2 (0 : Fin 1) q)) = _
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  have he : ((cfg0.win 3).blk t).view.emb (ix2 (0 : Fin 1) q) = ix2 (0 : Fin 1) q' := funext fun a => Fin.ext (by
    match a with
    | ⟨0, _⟩ => show win0_3.index t (0 : Fin 2) * 1 + 1 * 0 = 0; omega
    | ⟨1, _⟩ => show win0_3.index t (1 : Fin 2) * 512 + 1 * q.val = q'.val; omega)
  rw [he]
  exact host_bf_at m c 0 q'

/-- Bias window 5 holds the whole bias row at every point: its entry at column `q` is `main_arg5` at `q`. -/
theorem read_bi (c : Dev nD) (t : Fin cfg0.N) (q q' : Fin 512) (hq : q'.val = q.val) :
    @Eq EReal (iblk m c 5 t (ix2 (0 : Fin 1) q)) (m ((c : Thread nD τ).loc main_arg5) (ix1 q')) := by
  show V m c main_v9 (((cfg0.win 5).blk t).view.emb (ix2 (0 : Fin 1) q)) = _
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  have he : ((cfg0.win 5).blk t).view.emb (ix2 (0 : Fin 1) q) = ix2 (0 : Fin 1) q' := funext fun a => Fin.ext (by
    match a with
    | ⟨0, _⟩ => show win0_5.index t (0 : Fin 2) * 1 + 1 * 0 = 0; omega
    | ⟨1, _⟩ => show win0_5.index t (1 : Fin 2) * 512 + 1 * q.val = q'.val; omega)
  rw [he]
  exact host_bi_at m c 0 q'

/-- Bias window 7 holds the whole bias row at every point: its entry at column `q` is `main_arg7` at `q`. -/
theorem read_bg (c : Dev nD) (t : Fin cfg0.N) (q q' : Fin 512) (hq : q'.val = q.val) :
    @Eq EReal (iblk m c 7 t (ix2 (0 : Fin 1) q)) (m ((c : Thread nD τ).loc main_arg7) (ix1 q')) := by
  show V m c main_v10 (((cfg0.win 7).blk t).view.emb (ix2 (0 : Fin 1) q)) = _
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  have he : ((cfg0.win 7).blk t).view.emb (ix2 (0 : Fin 1) q) = ix2 (0 : Fin 1) q' := funext fun a => Fin.ext (by
    match a with
    | ⟨0, _⟩ => show win0_7.index t (0 : Fin 2) * 1 + 1 * 0 = 0; omega
    | ⟨1, _⟩ => show win0_7.index t (1 : Fin 2) * 512 + 1 * q.val = q'.val; omega)
  rw [he]
  exact host_bg_at m c 0 q'

/-- Bias window 9 holds the whole bias row at every point: its entry at column `q` is `main_arg9` at `q`. -/
theorem read_bo (c : Dev nD) (t : Fin cfg0.N) (q q' : Fin 512) (hq : q'.val = q.val) :
    @Eq EReal (iblk m c 9 t (ix2 (0 : Fin 1) q)) (m ((c : Thread nD τ).loc main_arg9) (ix1 q')) := by
  show V m c main_v11 (((cfg0.win 9).blk t).view.emb (ix2 (0 : Fin 1) q)) = _
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  have he : ((cfg0.win 9).blk t).view.emb (ix2 (0 : Fin 1) q) = ix2 (0 : Fin 1) q' := funext fun a => Fin.ext (by
    match a with
    | ⟨0, _⟩ => show win0_9.index t (0 : Fin 2) * 1 + 1 * 0 = 0; omega
    | ⟨1, _⟩ => show win0_9.index t (1 : Fin 2) * 512 + 1 * q.val = q'.val; omega)
  rw [he]
  exact host_bo_at m c 0 q'

/-! ## What a point writes back, the cover, and the array after the run -/

/-- The result array as a function of the launch contents of the ten arguments. -/
abbrev Garr (c : Dev nD) : S2x65536x512.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Point `t` writes back block `t` of `G`. -/
theorem flushed_eq (c : Dev nD) (t : Fin cfg0.N) :
    (dats m 0 c).flushed 10 t = ((cfg0.win 10).blk t).view.read (Elt Ideal) (Garr m c) := by
  rw [Cert.KernelIdeal.Value.flushed10]
  funext y
  obtain ⟨u, p, q, rfl⟩ : ∃ (u : Fin 2) (p : Fin 2048) (q : Fin 512), y = ix3 u p q := ⟨y 0, y 1, y 2, eq_ix3 y⟩
  show out0_10 (iblk m c 0 t) (iblk m c 1 t) (iblk m c 2 t) (iblk m c 3 t) (iblk m c 4 t) (iblk m c 5 t) (iblk m c 6 t) (iblk m c 7 t) (iblk m c 8 t) (iblk m c 9 t) (ix3 u p q)
    = Garr m c (((cfg0.win 10).blk t).view.emb (ix3 u p q))
  refine (congrFun (Cert.KernelIdeal.Block.out_block (iblk m c 0 t) (iblk m c 1 t) (iblk m c 2 t) (iblk m c 3 t) (iblk m c 4 t) (iblk m c 5 t) (iblk m c 6 t) (iblk m c 7 t) (iblk m c 8 t) (iblk m c 9 t)) (ix3 u p q)).trans ?_
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts t
  have hE0 : ((((cfg0.win 10).blk t).view.emb (ix3 u p q)) 0).val = u.val := by
    show win0_10.index t (0 : Fin 3) * 2 + 1 * u.val = u.val; omega
  have hE1 : ((((cfg0.win 10).blk t).view.emb (ix3 u p q)) 1).val = t.val * 2048 + p.val := by
    show win0_10.index t (1 : Fin 3) * 2048 + 1 * p.val = t.val * 2048 + p.val; omega
  have hE2 : ((((cfg0.win 10).blk t).view.emb (ix3 u p q)) 2).val = q.val := by
    show win0_10.index t (2 : Fin 3) * 512 + 1 * q.val = q.val; omega
  exact block_is_G _ _ _ _ _ _ _ _ _ _ _ _ _ _ _ _ _ _ _ _ (((cfg0.win 10).blk t).view.emb (ix3 u p q)) u p q hE0
    (funext fun k => congrArg₂ (· + ·) (read_in0 m c t p k _ hE1) (read_in1 m c t p k _ hE1))
    (funext fun k => read_wf m c t k q _ hE2) (funext fun k => read_wi m c t k q _ hE2)
    (funext fun k => read_wg m c t k q _ hE2) (funext fun k => read_wo m c t k q _ hE2)
    (read_bf m c t q _ hE2) (read_bi m c t q _ hE2) (read_bg m c t q _ hE2) (read_bo m c t q _ hE2)

/-- An index of the result array is in point `t`'s block iff each coordinate is in the block's range on its axis. -/
theorem mem_blk (t : Fin cfg0.N) (i : S2x65536x512.Idx) :
    i ∈ ((cfg0.win 10).blk t).view.set ↔ ∀ a : Fin 3, win0_10.index t a * S2x2048x512.size a ≤ (i a).val
      ∧ (i a).val < win0_10.index t a * S2x2048x512.size a + S2x2048x512.size a := by
  show i ∈ ((View.whole main_v12).slice (win0_10.rect t)).set ↔ _
  rw [View.set_slice_whole, Rect.mem_set_unit]
  exact Iff.rfl

/-- Every index of the result array is in the block of the point its row falls in. -/
theorem cover (i : S2x65536x512.Idx) :
    ∃ t : Fin cfg0.N, (cfg0.win 10).flush t = true ∧ i ∈ ((cfg0.win 10).blk t).view.set := by
  have h0 : (i 0).val < 2 := (i 0).isLt
  have h1 : (i 1).val < 65536 := (i 1).isLt
  have h2 : (i 2).val < 512 := (i 2).isLt
  have hN : cfg0.N = 32 := N_0
  have ht : (i 1).val / 2048 < cfg0.N := by rw [hN]; omega
  refine ⟨⟨(i 1).val / 2048, ht⟩, flush0_10 _, ?_⟩
  rw [mem_blk]
  obtain ⟨e10_0, e10_1, e10_2, e0_0, e0_1, e1_0, e1_1, e2_0, e2_1, e3_0, e3_1, e4_0, e4_1, e5_0, e5_1, e6_0, e6_1, e7_0, e7_1, e8_0, e8_1, e9_0, e9_1⟩ := idx_facts ⟨(i 1).val / 2048, ht⟩
  intro a
  match a with
  | ⟨0, _⟩ =>
    show win0_10.index ⟨(i 1).val / 2048, ht⟩ (0 : Fin 3) * 2 ≤ (i 0).val
      ∧ (i 0).val < win0_10.index ⟨(i 1).val / 2048, ht⟩ (0 : Fin 3) * 2 + 2
    omega
  | ⟨1, _⟩ =>
    show win0_10.index ⟨(i 1).val / 2048, ht⟩ (1 : Fin 3) * 2048 ≤ (i 1).val
      ∧ (i 1).val < win0_10.index ⟨(i 1).val / 2048, ht⟩ (1 : Fin 3) * 2048 + 2048
    have : (⟨(i 1).val / 2048, ht⟩ : Fin cfg0.N).val = (i 1).val / 2048 := rfl
    omega
  | ⟨2, _⟩ =>
    show win0_10.index ⟨(i 1).val / 2048, ht⟩ (2 : Fin 3) * 512 ≤ (i 2).val
      ∧ (i 2).val < win0_10.index ⟨(i 1).val / 2048, ht⟩ (2 : Fin 3) * 512 + 512
    omega

/-- The result array after the run is `G` of the arguments. -/
theorem final (c : Dev nD) : (dats m 0 c).arrAt 10 cfg0.N = Garr m c :=
  (dats m 0 c).arrAt_eq_of_cover 10 (Garr m c) (fun t _ => flushed_eq m c t) cover

/-- The kernel's run: every weakly fair execution ends with the result array at `G` of the arguments' launch contents
    and the arguments unchanged. -/
theorem run : θ_run defs (onTc (τ := τ) (main (F := Ideal))) ⟨m, fun _ => 0, ρ⟩ fun r => ∀ c : Dev nD,
      r.2.mem ((c : Thread nD τ).loc main_v12) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.ArrayValue

end
-- ==== Proof.LibLogisticForm.lean ====
/-
  The logistic function spelt out. A program that expands the logistic function into a negation, an exponential, an
  addition and a division, with the ones written as the float word of 1.0, computes `1 / (1 + exp(−v))`; on the extended
  reals that is the logistic function (0 at −∞, 1 at +∞). Nothing here depends on a program.
-/
import Idealize.ShloMosaic.PureOps.Ideal
import Idealize.ShloMosaic.PureOps.Ideal.Laws

noncomputable section

namespace Cert.LogisticForm

open Idealize.ShloMosaic

/-- The single-precision float word of 1.0 is the real number one. -/
theorem ofBits_one_f32 : Ideal.ofBits .f32 0x3F800000#32 = 1 := by
  simp [Ideal.ofBits, Ideal.ieee, -EReal.coe_mul]; norm_num

/-- One over one plus the exponential of the negated argument, the ones written as the float word of 1.0, is the
    logistic function of the argument, for every extended real. -/
theorem logistic_spelt (v : EReal) :
    Ideal.div (Ideal.ofBits .f32 0x3F800000#32) (Ideal.ofBits .f32 0x3F800000#32 + Ideal.exp (-v)) = Ideal.logistic v := by
  rw [ofBits_one_f32]; rfl

/-- The same with the ones already read as the number one. -/
theorem logistic_spelt_one (v : EReal) : Ideal.div 1 (1 + Ideal.exp (-v)) = Ideal.logistic v := rfl

end Cert.LogisticForm

end
-- ==== Proof.LibStack2.lean ====
/-
  Two arrays stacked on a new leading axis, read at an index. Each array [a, b] is first given a unit leading axis,
  [1, a, b]; the two are joined along that axis into [2, a, b]. The entry at `(u, r, c)` is the first array's at
  `(0, r, c)` when `u = 0` and the second's when `u = 1`. Nothing here depends on a program.
-/
import Idealize.ShloMosaic.Lib.Pipeline.Value
import Idealize.ShloMosaic.Lib.ValueIdx

namespace Cert.Stack2

open Idealize.ShloMosaic Idealize.ShloMosaic.ValueIdx

/-- The join of two [1, a, b] arrays along axis 0, at plane 0, is the first array. -/
theorem stack2_at_zero {α : Type} {a b : Nat} (x y : (⟨3, ![1, a, b]⟩ : Shape).Idx → α)
    (h : Shape.Concatenates [(⟨3, ![1, a, b]⟩ : Shape), ⟨3, ![1, a, b]⟩] ⟨3, ![2, a, b]⟩ 0)
    (u : Fin 2) (hu : u.val = 0) (r : Fin a) (c : Fin b) :
    concatenate (⟨3, ![2, a, b]⟩ : Shape) 0 [⟨⟨3, ![1, a, b]⟩, x⟩, ⟨⟨3, ![1, a, b]⟩, y⟩] h (ix3 u r c) = x (ix3 (0 : Fin 1) r c) :=
  concatenate_pair_apply_left (t := ⟨3, ![2, a, b]⟩) (s₁ := ⟨3, ![1, a, b]⟩) (s₂ := ⟨3, ![1, a, b]⟩) (0 : Fin 3) x y h
    (ix3 u r c) rfl (ix3 (0 : Fin 1) r c) (fun d => by
      match d with
      | ⟨0, _⟩ => exact hu.symm
      | ⟨1, _⟩ => rfl
      | ⟨2, _⟩ => rfl)

/-- At plane 1 it is the second array. -/
theorem stack2_at_one {α : Type} {a b : Nat} (x y : (⟨3, ![1, a, b]⟩ : Shape).Idx → α)
    (h : Shape.Concatenates [(⟨3, ![1, a, b]⟩ : Shape), ⟨3, ![1, a, b]⟩] ⟨3, ![2, a, b]⟩ 0)
    (u : Fin 2) (hu : u.val = 1) (r : Fin a) (c : Fin b) :
    concatenate (⟨3, ![2, a, b]⟩ : Shape) 0 [⟨⟨3, ![1, a, b]⟩, x⟩, ⟨⟨3, ![1, a, b]⟩, y⟩] h (ix3 u r c) = y (ix3 (0 : Fin 1) r c) :=
  concatenate_pair_apply_right (t := ⟨3, ![2, a, b]⟩) (s₁ := ⟨3, ![1, a, b]⟩) (s₂ := ⟨3, ![1, a, b]⟩) (0 : Fin 3) x y h
    (ix3 u r c) rfl rfl (ix3 (0 : Fin 1) r c) (fun d hd => by
      match d, hd with
      | ⟨0, _⟩, hd => exact absurd rfl hd
      | ⟨1, _⟩, _ => rfl
      | ⟨2, _⟩, _ => rfl) (by show 0 + 1 = u.val; omega)

end Cert.Stack2
-- ==== Proof.Ref.lean ====
/-
  The reference's result, stage by stage, is the array function `G`. Each of the four branches is the product of the summed inputs
  with a transposed weight matrix plus the bias spread over the rows — at row `r` and column `c` the pre-activation of
  row `r` of the sum against row `c` of the weight matrix. The reference spells the logistic function as one over one
  plus the exponential of the negated argument, which is the logistic function; the two results are given a unit plane
  axis and joined along it.
-/
import proofs.«149987_j21002390078075_2_alg».proof.Proof.Gen.ReferenceIdeal.Read
import proofs.«149987_j21002390078075_2_alg».proof.Proof.Spec
import proofs.«149987_j21002390078075_2_alg».proof.Proof.LibLogisticForm
import proofs.«149987_j21002390078075_2_alg».proof.Proof.LibStack2
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx Cert.Gates Cert.LogisticForm

/-- The argument arrays' types: the two inputs, a weight matrix, a bias vector. -/
abbrev A : Type := (⟨S65536x512, .f32⟩ : BufTy).Contents (Elt Ideal)
abbrev W : Type := (⟨S512x512, .f32⟩ : BufTy).Contents (Elt Ideal)
abbrev B : Type := (⟨S512, .f32⟩ : BufTy).Contents (Elt Ideal)

/-- The first branch's pre-activation: the contraction reads row `r` of the summed inputs and, through the transpose, row `c` of the weight matrix; the bias is read at `c` through its two broadcasts. -/
theorem pre_f (x0 x1 : A) (x2 : W) (x3 : B) (r : Fin 65536) (c : Fin 512) :
    val_main_v5 (F := Ideal) x0 x1 x2 x3 (ix2 r c) = pre (zrow x0 x1 r) (wrow x2 c) (x3 (ix1 c)) := by
  rw [val_main_v5_apply, val_main_v2_apply, val_main_v4_apply, val_main_v3_apply]
  have hb : idx_main_v3 (idx_main_v4 (ix2 r c)) = ix1 c :=
    funext fun a => Fin.ext (by match a with | ⟨0, _⟩ => rfl)
  rw [hb]
  unfold pre
  show _ + _ = _ + _
  refine congrArg₂ (· + ·) (Finset.sum_congr rfl fun k _ => ?_) rfl
  rw [val_main_v0_apply, val_main_v1_apply]
  have hl : lidx_main_v2 (ix2 r c) k = ix2 r k :=
    funext fun a => Fin.ext (by match a with | ⟨0, _⟩ => rfl | ⟨1, _⟩ => rfl)
  have hr : idx_main_v1 (ridx_main_v2 (ix2 r c) k) = ix2 c k :=
    funext fun a => Fin.ext (by match a with | ⟨0, _⟩ => rfl | ⟨1, _⟩ => rfl)
  rw [hl, hr]
  rfl

/-- The second branch's pre-activation, likewise. -/
theorem pre_i (x0 x1 : A) (x4 : W) (x5 : B) (r : Fin 65536) (c : Fin 512) :
    val_main_v16 (F := Ideal) x0 x1 x4 x5 (ix2 r c) = pre (zrow x0 x1 r) (wrow x4 c) (x5 (ix1 c)) := by
  rw [val_main_v16_apply, val_main_v13_apply, val_main_v15_apply, val_main_v14_apply]
  have hb : idx_main_v14 (idx_main_v15 (ix2 r c)) = ix1 c :=
    funext fun a => Fin.ext (by match a with | ⟨0, _⟩ => rfl)
  rw [hb]
  unfold pre
  show _ + _ = _ + _
  refine congrArg₂ (· + ·) (Finset.sum_congr rfl fun k _ => ?_) rfl
  rw [val_main_v0_apply, val_main_v12_apply]
  have hl : lidx_main_v13 (ix2 r c) k = ix2 r k :=
    funext fun a => Fin.ext (by match a with | ⟨0, _⟩ => rfl | ⟨1, _⟩ => rfl)
  have hr : idx_main_v12 (ridx_main_v13 (ix2 r c) k) = ix2 c k :=
    funext fun a => Fin.ext (by match a with | ⟨0, _⟩ => rfl | ⟨1, _⟩ => rfl)
  rw [hl, hr]
  rfl

/-- The third branch's pre-activation, likewise. -/
theorem pre_g (x0 x1 : A) (x6 : W) (x7 : B) (r : Fin 65536) (c : Fin 512) :
    val_main_v27 (F := Ideal) x0 x1 x6 x7 (ix2 r c) = pre (zrow x0 x1 r) (wrow x6 c) (x7 (ix1 c)) := by
  rw [val_main_v27_apply, val_main_v24_apply, val_main_v26_apply, val_main_v25_apply]
  have hb : idx_main_v25 (idx_main_v26 (ix2 r c)) = ix1 c :=
    funext fun a => Fin.ext (by match a with | ⟨0, _⟩ => rfl)
  rw [hb]
  unfold pre
  show _ + _ = _ + _
  refine congrArg₂ (· + ·) (Finset.sum_congr rfl fun k _ => ?_) rfl
  rw [val_main_v0_apply, val_main_v23_apply]
  have hl : lidx_main_v24 (ix2 r c) k = ix2 r k :=
    funext fun a => Fin.ext (by match a with | ⟨0, _⟩ => rfl | ⟨1, _⟩ => rfl)
  have hr : idx_main_v23 (ridx_main_v24 (ix2 r c) k) = ix2 c k :=
    funext fun a => Fin.ext (by match a with | ⟨0, _⟩ => rfl | ⟨1, _⟩ => rfl)
  rw [hl, hr]
  rfl

/-- The fourth branch's pre-activation, likewise. -/
theorem pre_o (x0 x1 : A) (x8 : W) (x9 : B) (r : Fin 65536) (c : Fin 512) :
    val_main_v36 (F := Ideal) x0 x1 x8 x9 (ix2 r c) = pre (zrow x0 x1 r) (wrow x8 c) (x9 (ix1 c)) := by
  rw [val_main_v36_apply, val_main_v33_apply, val_main_v35_apply, val_main_v34_apply]
  have hb : idx_main_v34 (idx_main_v35 (ix2 r c)) = ix1 c :=
    funext fun a => Fin.ext (by match a with | ⟨0, _⟩ => rfl)
  rw [hb]
  unfold pre
  show _ + _ = _ + _
  refine congrArg₂ (· + ·) (Finset.sum_congr rfl fun k _ => ?_) rfl
  rw [val_main_v0_apply, val_main_v32_apply]
  have hl : lidx_main_v33 (ix2 r c) k = ix2 r k :=
    funext fun a => Fin.ext (by match a with | ⟨0, _⟩ => rfl | ⟨1, _⟩ => rfl)
  have hr : idx_main_v32 (ridx_main_v33 (ix2 r c) k) = ix2 c k :=
    funext fun a => Fin.ext (by match a with | ⟨0, _⟩ => rfl | ⟨1, _⟩ => rfl)
  rw [hl, hr]
  rfl

/-- The first branch: one over one plus the exponential of the negated pre-activation is its logistic function. -/
theorem sig_f (x0 x1 : A) (x2 : W) (x3 : B) (r : Fin 65536) (c : Fin 512) :
    val_main_v11 (F := Ideal) x0 x1 x2 x3 (ix2 r c) = Ideal.logistic (pre (zrow x0 x1 r) (wrow x2 c) (x3 (ix1 c))) := by
  rw [val_main_v11_apply, val_main_v10_apply, val_main_cst_0_apply, val_main_v9_apply, val_main_v8_apply,
    val_main_cst_apply, val_main_v7_apply, val_main_v6_apply, pre_f]
  exact logistic_spelt _

/-- The second branch, likewise. -/
theorem sig_i (x0 x1 : A) (x4 : W) (x5 : B) (r : Fin 65536) (c : Fin 512) :
    val_main_v22 (F := Ideal) x0 x1 x4 x5 (ix2 r c) = Ideal.logistic (pre (zrow x0 x1 r) (wrow x4 c) (x5 (ix1 c))) := by
  rw [val_main_v22_apply, val_main_v21_apply, val_main_cst_2_apply, val_main_v20_apply, val_main_v19_apply,
    val_main_cst_1_apply, val_main_v18_apply, val_main_v17_apply, pre_i]
  exact logistic_spelt _

/-- The fourth branch, likewise. -/
theorem sig_o (x0 x1 : A) (x8 : W) (x9 : B) (r : Fin 65536) (c : Fin 512) :
    val_main_v42 (F := Ideal) x0 x1 x8 x9 (ix2 r c) = Ideal.logistic (pre (zrow x0 x1 r) (wrow x8 c) (x9 (ix1 c))) := by
  rw [val_main_v42_apply, val_main_v41_apply, val_main_cst_4_apply, val_main_v40_apply, val_main_v39_apply,
    val_main_cst_3_apply, val_main_v38_apply, val_main_v37_apply, pre_o]
  exact logistic_spelt _

/-- The new cell state at row `r`, column `c`. -/
theorem cell_ref (x0 x1 : A) (x2 : W) (x3 : B) (x4 : W) (x5 : B) (x6 : W) (x7 : B) (r : Fin 65536) (c : Fin 512) :
    val_main_v30 (F := Ideal) x0 x1 x2 x3 x4 x5 x6 x7 (ix2 r c)
    = cellOf (zrow x0 x1 r) (wrow x2 c) (wrow x4 c) (wrow x6 c) (x3 (ix1 c)) (x5 (ix1 c)) (x7 (ix1 c)) := by
  rw [val_main_v30_apply, val_main_v29_apply, val_main_v28_apply, sig_f, sig_i, pre_g]
  rfl

/-- The new hidden state at row `r`, column `c`. -/
theorem hid_ref (x0 x1 : A) (x2 : W) (x3 : B) (x4 : W) (x5 : B) (x6 : W) (x7 : B) (x8 : W) (x9 : B) (r : Fin 65536) (c : Fin 512) :
    val_main_v43 (F := Ideal) x0 x1 x2 x3 x4 x5 x6 x7 x8 x9 (ix2 r c)
    = hidOf (zrow x0 x1 r) (wrow x2 c) (wrow x4 c) (wrow x6 c) (wrow x8 c) (x3 (ix1 c)) (x5 (ix1 c)) (x7 (ix1 c)) (x9 (ix1 c)) := by
  rw [val_main_v43_apply, val_main_v31_apply, cell_ref, sig_o]
  rfl

/-- The reference's result array is `G` of the argument arrays: plane 0 of the join is the cell state, plane 1 the
    hidden state. -/
theorem ref_is_G (x0 x1 : A) (x2 : W) (x3 : B) (x4 : W) (x5 : B) (x6 : W) (x7 : B) (x8 : W) (x9 : B) :
    val_main_v46 (F := Ideal) x0 x1 x2 x3 x4 x5 x6 x7 x8 x9 = G x0 x1 x2 x3 x4 x5 x6 x7 x8 x9 := by
  funext j
  obtain ⟨u, r, c, rfl⟩ : ∃ (u : Fin 2) (r : Fin 65536) (c : Fin 512), j = ix3 u r c := ⟨j 0, j 1, j 2, eq_ix3 j⟩
  unfold val_main_v46
  have hidx : ∀ v : Fin 1, idx_main_v44 (ix3 v r c) = ix2 r c := fun v =>
    funext fun a => Fin.ext (by match a with | ⟨0, _⟩ => rfl | ⟨1, _⟩ => rfl)
  by_cases hu : u.val = 0
  · refine (Cert.Stack2.stack2_at_zero _ _ _ u hu r c).trans ?_
    rw [val_main_v44_apply, hidx, cell_ref]
    unfold G
    rw [if_pos hu]
  · have hu1 : u.val = 1 := by have := u.isLt; omega
    refine (Cert.Stack2.stack2_at_one _ _ _ u hu1 r c).trans ?_
    rw [val_main_v45_apply, show idx_main_v45 (ix3 (0 : Fin 1) r c) = ix2 r c from hidx 0, hid_ref]
    unfold G
    rw [if_neg hu]

end Cert.ReferenceIdeal.RefValue

end
-- ==== Proof.lean ====
/-
  The kernel adds its two inputs, contracts each row of the sum with the four transposed weight matrices (cast to a
  narrower float format, which is the identity on exact values), adds the biases and forms
  `cell = σ(f) + σ(i) · tanh(g)`, `hidden = tanh(cell) · σ(o)`, writing both planes of a [2, 65536, 512] array block by
  block over 32 grid points. The reference computes the same four products against the transposed matrices on the whole
  arrays, spells the logistic function as `1 / (1 + exp(−v))`, and stacks the two results. On the extended reals both
  results are one array function `G` of the ten arguments (Proof/Spec.lean): the contraction runs over the same
  coordinate in the same order on both sides and the spelt-out logistic function is the logistic function, so no law of
  arithmetic beyond unfolding is used and the finiteness of the inputs is never needed.

  The kernel's result: each grid point's block is a block of `G` (Proof/Block.lean for the body, Proof/KernelArray.lean
  for the blocks, the cover and the run). The reference's result is `G` stage by stage (Proof/Ref.lean). The three
  frames are the generated ones; the idealization rewrote nothing, so its claim is trivial.
-/
import proofs.«149987_j21002390078075_2_alg».proof.Defs
import proofs.«149987_j21002390078075_2_alg».proof.Proof.Gen.Kernel
import proofs.«149987_j21002390078075_2_alg».proof.Proof.Gen.Kernel.Skeleton
import proofs.«149987_j21002390078075_2_alg».proof.Proof.Gen.Kernel.Launch
import proofs.«149987_j21002390078075_2_alg».proof.Proof.Gen.Kernel.Points
import proofs.«149987_j21002390078075_2_alg».proof.Proof.Gen.Kernel.Frame
import proofs.«149987_j21002390078075_2_alg».proof.Proof.Gen.KernelIdeal
import proofs.«149987_j21002390078075_2_alg».proof.Proof.Gen.KernelIdeal.Skeleton
import proofs.«149987_j21002390078075_2_alg».proof.Proof.Gen.KernelIdeal.Launch
import proofs.«149987_j21002390078075_2_alg».proof.Proof.Gen.KernelIdeal.Points
import proofs.«149987_j21002390078075_2_alg».proof.Proof.Gen.KernelIdeal.Frame
import proofs.«149987_j21002390078075_2_alg».proof.Proof.Gen.ReferenceIdeal
import proofs.«149987_j21002390078075_2_alg».proof.Proof.Gen.Pre_finite_inputs
import proofs.«149987_j21002390078075_2_alg».proof.Proof.Gen.KernelIdeal.Value
import proofs.«149987_j21002390078075_2_alg».proof.Proof.Gen.ReferenceIdeal.Run
import proofs.«149987_j21002390078075_2_alg».proof.Proof.Gen.ReferenceIdeal.Read
import proofs.«149987_j21002390078075_2_alg».proof.Proof.KernelArray
import proofs.«149987_j21002390078075_2_alg».proof.Proof.Ref
import Idealize.ShloMosaic.Adequacy
import Idealize.ShloMosaic.Init

noncomputable section

namespace Cert.Proof

open Idealize.ShloMosaic Idealize.SL.Sem

/-- The three programs run without a fault and leave their arguments unchanged. -/
theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are both `G` of the argument arrays, which agree. -/
theorem algebraic : Cert.algebraic_KernelIdeal_ReferenceIdeal := by
  intro m ρ m' ρ' _ hagree
  refine ⟨fun c => Cert.KernelIdeal.ArrayValue.Garr m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v46_eq, Cert.ReferenceIdeal.RefValue.ref_is_G,
    a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
